-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x256 .f32) (main_arg1 : IVec S1600000 32) (main_arg2 : IVec S1600000 32) (main_arg3 : FVec F S1600000 .f32) (main_arg4 : FVec F S256x128 .f32) (main_arg5 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S100000x128 : Shape := ⟨2, ![100000, 128]⟩
abbrev S5000x256 : Shape := ⟨2, ![5000, 256]⟩
abbrev S5000x128 : Shape := ⟨2, ![5000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 27
  | .vmem => 5
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x128, .f32⟩
  | .hbm, ⟨5, _⟩ => ⟨S128, .f32⟩
  | .hbm, ⟨6, _⟩ => ⟨S100000x128, .bf16⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .bf16⟩
  | .hbm, ⟨16, _⟩ => ⟨S1600000x128, .f32⟩
  | .hbm, ⟨17, _⟩ => ⟨S1600000x1, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S1x128, .f32⟩
  | .hbm, ⟨25, _⟩ => ⟨S100000x128, .f32⟩
  | .hbm, ⟨26, _⟩ => ⟨S100000x128, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .bf16⟩
  | .local _ .vmem, ⟨4, _⟩ => ⟨S5000x128, .bf16⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .bf16 = 32 ∨ (Rect.block (s := S100000x128) S5000x128.size (cc0_transform_2 i) (hinb0_2 i)).WholeWords (EltTy.packing .bf16)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S100000x128 : Shape := ⟨2, ![100000, 128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x128, .f32⟩
  | .hbm, ⟨5, _⟩ => ⟨S128, .f32⟩
  | .hbm, ⟨6, _⟩ => ⟨S100000x128, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S1x128, .f32⟩
  | .hbm, ⟨24, _⟩ => ⟨S100000x128, .f32⟩
  | .hbm, ⟨25, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.LibDotIdx.lean ====
import Idealize.ShloMosaic.Lib.ValueIdx
import Idealize.ShloMosaic.PureOps.Ideal.Laws

/-!
# A matrix product into a zero accumulator, read at an index

Two arrangements of a rank-2 product with one contracted axis, at the exact extended reals: the plain one
(rows of the left operand against columns of the right) and the one that contracts the second axis of BOTH
operands (rows against rows).  Read at `(a, b)`, each is the sum over the contracted coordinate of the products
of the two entries; the zero accumulator contributes nothing.
-/

noncomputable section

namespace DotIdx

open Idealize.ShloMosaic Idealize.ShloMosaic.ValueIdx

variable {m k n : ℕ} {φ₁ φ₂ : FTy}

/-- Rows against columns: `[m, k] × [k, n] → [m, n]`. -/
theorem matmul_plain_zero_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- Rows against rows: `[m, k] × [n, k] → [m, n]`, the second axis of both operands contracted. -/
theorem matmul_rows_zero_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B
        (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end DotIdx

end
-- ==== Proof.Payload.lean ====
import proofs.«156057_j21818433863981_2_alg».proof.Proof.Gen.KernelIdeal.Skeleton
import proofs.«156057_j21818433863981_2_alg».proof.Proof.LibDotIdx
import Idealize.ShloMosaic.Lib.ValueIdx

/-!
# One block of the projection

At a grid point the kernel body holds 5000 rows of the node features and the whole weight array.  It rounds both
to the narrow format, multiplies them into a zero accumulator and rounds the product again.  On the extended reals
a change of format is the identity and the zero accumulator adds nothing, so the block it stores is, at row `p`
and output feature `q`, the sum over the input features `k` of `rows (p, k) · weights (k, q)`.
-/

noncomputable section

namespace Cert.KernelIdeal.Block

open Idealize.ShloMosaic Idealize.ShloMosaic.ValueIdx Cert.KernelIdeal Cert.KernelIdeal.Gen

/-- The stored block at `(p, q)`: the plain sum of products of the loaded rows and the loaded weights. -/
theorem pay_apply (x0 : FVec Ideal S5000x256 .f32) (x1 : FVec Ideal S256x128 .f32) (p : Fin 5000) (q : Fin 128) :
    k0_pay1 (F := Ideal) x0 x1 (ix2 p q) = ∑ k : Fin 256, x0 (ix2 p k) * x1 (ix2 k q) := by
  unfold k0_pay1
  exact DotIdx.matmul_plain_zero_apply dot_S5000x256_S256x128_S5000x128_1_0_0_1_n_n_wf none
    (truncf .bf16 x0 bitsLt_bf16_f32) (truncf .bf16 x1 bitsLt_bf16_f32) p q

end Cert.KernelIdeal.Block

end
-- ==== Proof.Spec.lean ====
import Idealize.ShloMosaic.Lib.ValueIdx
import Idealize.ShloMosaic.PureOps.Ideal

/-!
# The dense projection of the node features

The node features form a `100000 × 256` array `x` and the layer's weights a `256 × 128` array `w`.  The
projected features are the matrix product `x · w`: entry `(a, b)` is the sum over the 256 input features `k` of
`x (a, k) · w (k, b)`, taken in the extended reals.  Both programs compute this array — one block of 5000 rows at a
time on one side, as a single product on the other — and then apply the same aggregation over the graph's edges to
it.  This file states the array once, as a function of the two argument arrays.
-/

noncomputable section

namespace GraphProj

open Idealize.ShloMosaic Idealize.ShloMosaic.ValueIdx

/-- The projected features `x · w`, index by index: the sum over the input features of the products. -/
def proj (x : (⟨2, ![100000, 256]⟩ : Shape).Idx → EReal) (w : (⟨2, ![256, 128]⟩ : Shape).Idx → EReal) :
    (⟨2, ![100000, 128]⟩ : Shape).Idx → EReal :=
  fun i => ∑ k : Fin 256, x (ix2 (i 0 : Fin 100000) k) * w (ix2 k (i 1 : Fin 128))

/-- The entry of the projected features at row `a` and output feature `b`. -/
theorem proj_apply (x : (⟨2, ![100000, 256]⟩ : Shape).Idx → EReal) (w : (⟨2, ![256, 128]⟩ : Shape).Idx → EReal)
    (a : Fin 100000) (b : Fin 128) :
    proj x w (ix2 a b) = ∑ k : Fin 256, x (ix2 a k) * w (ix2 k b) := rfl

end GraphProj

end
-- ==== Proof.KernelArray.lean ====
import proofs.«156057_j21818433863981_2_alg».proof.Proof.Gen.KernelIdeal.Frame
import proofs.«156057_j21818433863981_2_alg».proof.Proof.Payload
import proofs.«156057_j21818433863981_2_alg».proof.Proof.Spec
import Idealize.ShloMosaic.Lib.Pipeline.Value
import Idealize.ShloMosaic.Lib.ValueIdx

/-!
# From the stored blocks to the projected-feature array

The grid has twenty points.  At point `t` the kernel reads rows `5000 t … 5000 t + 4999` of the node features
and the whole weight array, and writes rows `5000 t … 5000 t + 4999` of the projected features.  An entry of the
product depends only on its own row of the features and on the weights, so the block written at `t` is exactly
those rows of the product `x · w` of the whole arrays; the twenty row blocks tile the `100000` rows (row `r` lies
in block `r / 5000`), so after the last point the array holds `x · w`.
-/

noncomputable section

open Idealize.ShloMosaic Idealize.ShloMosaic.TcCoe Idealize.SL.Sem
open Idealize.ShloMosaic.Pipeline (Dat)

namespace Cert.KernelIdeal.Array

open Cert.KernelIdeal Cert.KernelIdeal.Gen Idealize.ShloMosaic.ValueIdx GraphProj

variable (m : (ℓ : Loc nD τ sig) → Buf (Elt Ideal) ℓ)

theorem zero_offsets : (![0, 0] : Fin 2 → Nat) = fun _ => 0 := funext fun a => by fin_cases a <;> rfl

/-- Where each window's block sits at grid point `t`: the feature rows and the output rows move with the point,
    the weights stay. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block at point `t` is rows `5000 t …` of the feature array: its row `p` is row `5000 t + p`. -/
theorem rows_apply (c : Dev nD) (t : Fin cfg0.N) (p : Fin 5000) (k : Fin 256) (a : Fin 100000)
    (ha : a.val = 5000 * t.val + p.val) :
    (iblk m c 0 t : FVec Ideal S5000x256 .f32) (ix2 p k) = (V m c main_arg0 : S100000x256.Idx → EReal) (ix2 a k) := by
  obtain ⟨e0, e1, -⟩ := block_index t
  unfold iblk
  rw [View.read_apply]
  show V m c main_arg0 _ = V m c main_arg0 _
  refine congrArg (V m c main_arg0) ?_
  funext ax; apply Fin.ext
  match ax with
  | ⟨0, _⟩ => show win0_0.index t (0 : Fin 2) * 5000 + 1 * p.val = a.val; rw [e0, ha]; omega
  | ⟨1, _⟩ => show win0_0.index t (1 : Fin 2) * 256 + 1 * k.val = k.val; rw [e1]; omega

/-- The weight block at every point is the whole weight array. -/
theorem weights_apply (c : Dev nD) (t : Fin cfg0.N) (k : Fin 256) (q : Fin 128) :
    (iblk m c 1 t : FVec Ideal S256x128 .f32) (ix2 k q) = (V m c main_arg4 : S256x128.Idx → EReal) (ix2 k q) := by
  obtain ⟨-, -, e2, e3, -⟩ := block_index t
  unfold iblk
  rw [View.read_apply]
  show V m c main_arg4 _ = V m c main_arg4 _
  refine congrArg (V m c main_arg4) ?_
  funext ax; apply Fin.ext
  match ax with
  | ⟨0, _⟩ => show win0_1.index t (0 : Fin 2) * 256 + 1 * k.val = k.val; rw [e2]; omega
  | ⟨1, _⟩ => show win0_1.index t (1 : Fin 2) * 128 + 1 * q.val = q.val; rw [e3]; omega

/-- What point `t` writes back is rows `5000 t …` of the product of the whole arrays. -/
theorem flushed_eq (c : Dev nD) (t : Fin cfg0.N) :
    (dats m 0 c).flushed 2 t
      = ((cfg0.win 2).blk t).view.read (Elt Ideal) (proj (V m c main_arg0) (V m c main_arg4)) := by
  show (cfg0.win 2).cut (grid0.coords t) ((dats m 0 c).after 2 t) = _
  rw [after0_2]
  unfold out0_2
  rw [View.canon_unit_zero zero_offsets]
  simp only [View.ld_unit_zero (S := S5000x256) zero_offsets, View.ld_unit_zero (S := S256x128) zero_offsets]
  obtain ⟨-, -, -, -, e4, e5⟩ := block_index t
  have hN : cfg0.N = 20 := N_0
  funext j
  obtain ⟨p, q, rfl⟩ : ∃ (p : Fin 5000) (q : Fin 128), j = ix2 p q := ⟨j 0, j 1, eq_ix2 j⟩
  have ht : t.val < 20 := hN ▸ t.isLt
  obtain ⟨a, ha⟩ : ∃ a : Fin 100000, a.val = 5000 * t.val + p.val :=
    ⟨⟨5000 * t.val + p.val, by have := p.isLt; omega⟩, rfl⟩
  have hemb : ((cfg0.win 2).blk t).view.emb (ix2 p q) = ix2 a q := by
    funext ax; apply Fin.ext
    match ax with
    | ⟨0, _⟩ => show win0_2.index t (0 : Fin 2) * 5000 + 1 * p.val = a.val; rw [e4, ha]; omega
    | ⟨1, _⟩ => show win0_2.index t (1 : Fin 2) * 128 + 1 * q.val = q.val; rw [e5]; omega
  rw [View.read_apply, hemb, proj_apply]
  refine (Block.pay_apply _ _ p q).trans ?_
  refine Finset.sum_congr rfl fun k _ => ?_
  rw [rows_apply m c t p k a ha, weights_apply m c t k q]

/-- An index of the output array lies in point `t`'s block iff each coordinate is in the block's range. -/
theorem mem_blk (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v0).slice (win0_2.rect t)).set ↔ _
  rw [View.set_slice_whole, Rect.mem_set_unit]
  exact Iff.rfl

/-- Every row of the output lies in some point's block: row `r` in block `r / 5000`. -/
theorem covered (i : S100000x128.Idx) :
    ∃ t : Fin cfg0.N, (cfg0.win 2).flush t = true ∧ i ∈ ((cfg0.win 2).blk t).view.set := by
  have hN : cfg0.N = 20 := N_0
  have h0 : (i 0).val < 100000 := idx2_lt0 i
  have h1 : (i 1).val < 128 := idx2_lt1 i
  obtain ⟨t, ht⟩ : ∃ t : Fin cfg0.N, t.val = (i 0).val / 5000 := ⟨⟨(i 0).val / 5000, by omega⟩, rfl⟩
  obtain ⟨-, -, -, -, e4, e5⟩ := block_index t
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    rw [e4, ht]; omega
  | ⟨1, _⟩ =>
    show win0_2.index t (1 : Fin 2) * 128 ≤ (i 1).val ∧ (i 1).val < win0_2.index t (1 : Fin 2) * 128 + 128
    rw [e5]; omega

/-- After the last grid point the projected-feature array holds the product of the feature and weight arrays. -/
theorem final (c : Dev nD) :
    (dats m 0 c).arrAt 2 cfg0.N
      = proj (m ((c : Thread nD τ).loc main_arg0)) (m ((c : Thread nD τ).loc main_arg4)) :=
  ((dats m 0 c).arrAt_eq_of_cover 2 (proj (V m c main_arg0) (V m c main_arg4))
    (fun t _ => flushed_eq m c t) covered).trans (by rw [V_main_arg0, V_main_arg4])

end Cert.KernelIdeal.Array

end
-- ==== Proof.Aggregate.lean ====
import proofs.«156057_j21818433863981_2_alg».proof.Proof.Gen.KernelIdeal
import proofs.«156057_j21818433863981_2_alg».proof.Proof.Gen.ReferenceIdeal
import Idealize.ShloMosaic.PureOps.Ideal

/-!
# The aggregation over the graph's edges

Once the projected features `h` are there, both programs finish in the same way.  An edge `e` names a source node
`cols e` (a negative index counts from the end: `100000` is added to it), a destination node `rows e` and a weight
`vals e`.  The row of `h` at the source node is taken, scaled by the edge's weight, and added into the
destination node's row of an array that starts at zero; then the bias vector is added to every row.

The two programs spell these steps with their own copies of the same dimension records, and one of them also
widens the gathered rows from the narrow format, which on the extended reals changes nothing.  So the two spellings
are one function of `h` and the remaining arguments.  Nothing about the gather or the sum over the edges is used
beyond that.
-/

noncomputable section

namespace EdgeAgg

open Idealize.ShloMosaic

section Blockwise
open Cert.KernelIdeal Cert.KernelIdeal.Facts₀

/-- The aggregation as spelt after the blockwise product: gather, widen, scale, sum into the destinations, add
    the bias. -/
def ofBlocks (h : FVec Ideal S100000x128 .bf16) (rows cols : Vec Ideal S1600000 .i32)
    (vals : FVec Ideal S1600000 .f32) (bias : FVec Ideal S128 .f32) : FVec Ideal S100000x128 .f32 :=
  addf (Host.scatterAdd scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 rows) (mulf (broadcastInDim S1600000x128 ![0, 1] bcast_S1600000x1_S1600000x128_0_1 (broadcastInDim S1600000x1 ![0] bcast_S1600000_S1600000x1_0 vals)) (extf .f32 (Host.gather gather_S100000x128_S1600000x1_S1600000x128_1_0_n_n_0_1_1128 h (broadcastInDim S1600000x1 ![0] bcast_S1600000_S1600000x1_0 (select (cmpi .slt cols (broadcastInDim S1600000 ![] bcast_S_S1600000 (constantI S_ 32 0#32))) (addi cols (broadcastInDim S1600000 ![] bcast_S_S1600000 (constantI S_ 32 100000#32))) cols))) bitsLt_bf16_f32))) (broadcastInDim S100000x128 ![0, 1] bcast_S1x128_S100000x128_0_1 (broadcastInDim S1x128 ![1] bcast_S128_S1x128_1 bias))

end Blockwise

section Whole
open Cert.ReferenceIdeal Cert.ReferenceIdeal.Facts₀

/-- The aggregation as spelt after the single product: gather, scale, sum into the destinations, add the bias. -/
def ofWhole (h : FVec Ideal S100000x128 .f32) (rows cols : Vec Ideal S1600000 .i32)
    (vals : FVec Ideal S1600000 .f32) (bias : FVec Ideal S128 .f32) : FVec Ideal S100000x128 .f32 :=
  addf (Host.scatterAdd scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 rows) (mulf (broadcastInDim S1600000x128 ![0, 1] bcast_S1600000x1_S1600000x128_0_1 (broadcastInDim S1600000x1 ![0] bcast_S1600000_S1600000x1_0 vals)) (Host.gather gather_S100000x128_S1600000x1_S1600000x128_1_0_n_n_0_1_1128 h (broadcastInDim S1600000x1 ![0] bcast_S1600000_S1600000x1_0 (select (cmpi .slt cols (broadcastInDim S1600000 ![] bcast_S_S1600000 (constantI S_ 32 0#32))) (addi cols (broadcastInDim S1600000 ![] bcast_S_S1600000 (constantI S_ 32 100000#32))) cols))))) (broadcastInDim S100000x128 ![0, 1] bcast_S1x128_S100000x128_0_1 (broadcastInDim S1x128 ![1] bcast_S128_S1x128_1 bias))

end Whole

/-- The two spellings are one function: the dimension records agree field by field, and widening a row of
    extended reals is the identity. -/
theorem ofBlocks_eq_ofWhole (h : (⟨2, ![100000, 128]⟩ : Shape).Idx → EReal)
    (rows cols : Vec Ideal (⟨1, ![1600000]⟩ : Shape) .i32)
    (vals : (⟨1, ![1600000]⟩ : Shape).Idx → EReal) (bias : (⟨1, ![128]⟩ : Shape).Idx → EReal) :
    ofBlocks h rows cols vals bias = ofWhole h rows cols vals bias := rfl

end EdgeAgg

end
-- ==== Proof.KernelRun.lean ====
import proofs.«156057_j21818433863981_2_alg».proof.Proof.KernelArray
import proofs.«156057_j21818433863981_2_alg».proof.Proof.Aggregate
import Idealize.ShloMosaic.Lib.StableHlo.Run
import Idealize.ShloMosaic.Lib.Pipeline.FrameSuffix

/-!
# The blockwise program's run

The twenty grid points leave the projected features `x · w` in their array.  The lines that follow read that
array and four of the arguments — the edges' destination and source nodes, the edges' weights and the bias —,
none of which the grid has touched, and compute the aggregation over the edges from them.  So every run ends
with the result at the aggregation of `x · w`, and the six arguments as they were.
-/

noncomputable section

open Idealize.ShloMosaic Idealize.ShloMosaic.TcCoe Idealize.SL.Sem Idealize.ShloMosaic.StableHlo
open Idealize.ShloMosaic.Pipeline (Dat)

namespace Cert.KernelIdeal.Whole

open Cert.KernelIdeal Cert.KernelIdeal.Gen GraphProj

variable (m : (ℓ : Loc nD τ sig) → Buf (Elt Ideal) ℓ) (ρ : Dev nD → PrngReg)

set_option maxHeartbeats 2000000 in
/-- The lines after the grid compute the aggregation of the projected features: they read the array the grid
    wrote, which holds `x · w`, and the arguments the grid did not touch. -/
theorem tail_eq (c : Dev nD) :
    Pipeline.afterTail₀ cfgs (dats m) 0 (V0 m) [hostOps1] c main_v17
      = EdgeAgg.ofBlocks (proj (m ((c.tc : Thread nD τ).loc main_arg0)) (m ((c.tc : Thread nD τ).loc main_arg4)))
          (m ((c.tc : Thread nD τ).loc main_arg1)) (m ((c.tc : Thread nD τ).loc main_arg2))
          (m ((c.tc : Thread nD τ).loc main_arg3)) (m ((c.tc : Thread nD τ).loc main_arg5)) := by
  unfold Pipeline.afterTail₀
  show StableHlo.after hostOps1 _ (Proc.devRef .tc main_v17) = _
  after_results
  show EdgeAgg.ofBlocks _ _ _ _ _ = _
  refine congr (congr (congr (congr (congrArg EdgeAgg.ofBlocks ?_) ?_) ?_) ?_) ?_
  · exact (Pipeline.withArrays_arr spec0 launch0.win.arr_inj c _ _ 2).trans (Array.final m c)
  · exact Pipeline.withArrays_of_ne _ c (V0 m c) _ main_arg1
      (by exact (by decide : ∀ w, Pipeline.arrRef spec0 w ≠ main_arg1))
  · exact Pipeline.withArrays_of_ne _ c (V0 m c) _ main_arg2
      (by exact (by decide : ∀ w, Pipeline.arrRef spec0 w ≠ main_arg2))
  · exact Pipeline.withArrays_of_ne _ c (V0 m c) _ main_arg3
      (by exact (by decide : ∀ w, Pipeline.arrRef spec0 w ≠ main_arg3))
  · exact Pipeline.withArrays_of_ne _ c (V0 m c) _ main_arg5
      (by exact (by decide : ∀ w, Pipeline.arrRef spec0 w ≠ main_arg5))

/-- Every run ends with the result at the aggregation of the projection of the arguments, the arguments unchanged. -/
theorem run : θ_run defs (onTc (τ := τ) (main (F := Ideal))) ⟨m, fun _ => 0, ρ⟩ fun r => ∀ c : Dev nD,
      r.2.mem ((c.tc : Thread nD τ).loc main_v17)
        = EdgeAgg.ofBlocks (proj (m ((c.tc : Thread nD τ).loc main_arg0)) (m ((c.tc : Thread nD τ).loc main_arg4)))
            (m ((c.tc : Thread nD τ).loc main_arg1)) (m ((c.tc : Thread nD τ).loc main_arg2))
            (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v17 (Pipeline.mem_restRefs_of main_v17 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 1).trans (((dats m 0 c).arrAt_in 1 rfl _).trans ((A_eq m c 1).trans (V_main_arg4 m c))),
      ((h c).2 main_arg5 (Pipeline.mem_restRefs_of main_arg5 (by decide) (by decide))).trans (W_main_arg5 m (dats m) c)⟩)
    (run_main m ρ)

end Cert.KernelIdeal.Whole

end
-- ==== Proof.RefValue.lean ====
import proofs.«156057_j21818433863981_2_alg».proof.Proof.Gen.ReferenceIdeal.Read
import proofs.«156057_j21818433863981_2_alg».proof.Proof.Aggregate
import proofs.«156057_j21818433863981_2_alg».proof.Proof.Spec
import Idealize.ShloMosaic.Lib.ValueIdx

/-!
# The single product, and the run that follows it

On this side the projected features are computed as one product of the whole feature array with the weight array.
At the extended reals that product is, at `(a, b)`, the sum over the input features `k` of `x (a, k) · w (k, b)`:
the projection.  The run then applies the aggregation over the edges to it.
-/

noncomputable section

namespace Cert.ReferenceIdeal.Whole

open Cert.ReferenceIdeal Cert.ReferenceIdeal.Gen Idealize.ShloMosaic Idealize.ShloMosaic.TcCoe Idealize.SL.Sem
open Idealize.ShloMosaic.ValueIdx GraphProj

/-- The product of the whole arrays is the projection, entry by entry. -/
theorem dot_eq_proj (x : FVec Ideal S100000x256 .f32) (w : FVec Ideal S256x128 .f32) :
    Host.dotGeneral (F := Ideal) dot_S100000x256_S256x128_S100000x128_1_0_0_1_n_n none x w = proj x w := by
  funext i
  obtain ⟨a, b, rfl⟩ : ∃ (a : Fin 100000) (b : Fin 128), i = ix2 a b := ⟨i 0, i 1, eq_ix2 i⟩
  refine (Read.val_main_v0_apply x w (ix2 a b)).trans ?_
  rw [proj_apply]
  refine Finset.sum_congr rfl fun k _ => ?_
  have el : Read.lidx_main_v0 (ix2 a b) k = ix2 a k :=
    funext fun ax => Fin.ext (by match ax with | ⟨0, _⟩ => rfl | ⟨1, _⟩ => rfl)
  have er : Read.ridx_main_v0 (ix2 a b) k = ix2 k b :=
    funext fun ax => Fin.ext (by match ax with | ⟨0, _⟩ => rfl | ⟨1, _⟩ => rfl)
  rw [el, er]

/-- Every run ends with the result at the aggregation of the projection of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16)
        = EdgeAgg.ofWhole (proj (m ((c.tc : Thread nD τ).loc main_arg0)) (m ((c.tc : Thread nD τ).loc main_arg4)))
            (m ((c.tc : Thread nD τ).loc main_arg1)) (m ((c.tc : Thread nD τ).loc main_arg2))
            (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans
      (congrArg (fun g => EdgeAgg.ofWhole g (m ((c.tc : Thread nD τ).loc main_arg1))
          (m ((c.tc : Thread nD τ).loc main_arg2)) (m ((c.tc : Thread nD τ).loc main_arg3))
          (m ((c.tc : Thread nD τ).loc main_arg5)))
        (dot_eq_proj (m ((c.tc : Thread nD τ).loc main_arg0)) (m ((c.tc : Thread nD τ).loc main_arg4)))),
      (h c).2⟩)
    (Cert.ReferenceIdeal.Value.run (F := Ideal) m ρ)

end Cert.ReferenceIdeal.Whole

end
-- ==== Proof.lean ====
/- One layer of a graph convolution: `out = A · (x · w) + bias`, where `x` holds 256 features for each of 100000
   nodes, `w` is the 256 × 128 weight array, and the sparse adjacency `A` is given by its 1600000 edges (destination
   node, source node, weight).

   One program computes `h = x · w` block by block — twenty blocks of 5000 rows, each a product of the block's rows
   with the whole of `w` into a zero accumulator, rounded to a narrow format on the way in and on the way out — and
   the other as a single product.  On the extended reals a change of format is the identity and the zero accumulator
   adds nothing, so each entry of either is the same sum over the 256 input features (Proof/Spec.lean the sum,
   Proof/Payload.lean one block, Proof/KernelArray.lean the twenty blocks as the whole array, Proof/RefValue.lean the
   single product).  Both programs then apply the same aggregation over the edges to `h`: gather the source node's
   row, scale it by the edge's weight, add it into the destination node's row, add the bias.  That aggregation is
   carried as one function of `h` and the other arguments and is never opened (Proof/Aggregate.lean); the two results
   are equal because the two `h` are.  The only laws used are that the two sums have the same terms in the same order
   and that `0 + s = s`; both hold at the infinities too, so the finiteness of the inputs is not needed.

   The three runs terminate without fault and leave the arguments unchanged; the idealized program is the printed
   one read at the extended reals, with no rewrite to account for. -/
import proofs.«156057_j21818433863981_2_alg».proof.Defs
import proofs.«156057_j21818433863981_2_alg».proof.Proof.Gen.Kernel
import proofs.«156057_j21818433863981_2_alg».proof.Proof.Gen.Kernel.Frame
import proofs.«156057_j21818433863981_2_alg».proof.Proof.Gen.KernelIdeal
import proofs.«156057_j21818433863981_2_alg».proof.Proof.Gen.KernelIdeal.Frame
import proofs.«156057_j21818433863981_2_alg».proof.Proof.Gen.ReferenceIdeal
import proofs.«156057_j21818433863981_2_alg».proof.Proof.Gen.ReferenceIdeal.Run
import proofs.«156057_j21818433863981_2_alg».proof.Proof.Gen.ReferenceIdeal.Read
import proofs.«156057_j21818433863981_2_alg».proof.Proof.Gen.Pre_finite_inputs
import proofs.«156057_j21818433863981_2_alg».proof.Proof.KernelRun
import proofs.«156057_j21818433863981_2_alg».proof.Proof.RefValue
import proofs.«156057_j21818433863981_2_alg».proof.Proof.Aggregate
import Idealize.ShloMosaic.Adequacy
import Idealize.ShloMosaic.Init

noncomputable section

namespace Cert.Proof

open Idealize.ShloMosaic Idealize.SL.Sem

/-- The word-level program terminates without fault and leaves its arguments unchanged. -/
theorem frame_kernel : Cert.frame_Kernel := fun m ρ _ => Cert.Kernel.Gen.frame m ρ

/-- So does the same program read at the extended reals. -/
theorem frame_kernel_ideal : Cert.frame_KernelIdeal := fun m ρ _ => Cert.KernelIdeal.Gen.frame m ρ

/-- The program with the single product is a straight line of array operations: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories that agree on the six arguments, both programs end with the aggregation over the edges of the same
    projected features `x · w`: the blockwise product and the single product are one array, and the aggregation is one
    function of it. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Whole.run m' ρ')
  obtain ⟨a0, a1, a2, a3, a4, a5⟩ := hagree c
  rw [a0, a1, a2, a3, a4, a5]
  exact (EdgeAgg.ofBlocks_eq_ofWhole _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
